-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x1x4096 : Shape := ⟨3, ![16, 1, 4096]⟩
abbrev S1x1024x3 : Shape := ⟨3, ![1, 1024, 3]⟩
abbrev S1x3x4096 : Shape := ⟨3, ![1, 3, 4096]⟩
abbrev S1x1x1024 : Shape := ⟨3, ![1, 1, 1024]⟩
abbrev S1x1x4096 : Shape := ⟨3, ![1, 1, 4096]⟩
abbrev S1024x3 : Shape := ⟨2, ![1024, 3]⟩
abbrev S3x4096 : Shape := ⟨2, ![3, 4096]⟩
abbrev S1024x4096 : Shape := ⟨2, ![1024, 4096]⟩
abbrev S1024x1 : Shape := ⟨2, ![1024, 1]⟩
abbrev S1x4096 : Shape := ⟨2, ![1, 4096]⟩
abbrev S1024 : Shape := ⟨1, ![1024]⟩
abbrev S1x1024 : Shape := ⟨2, ![1, 1024]⟩
abbrev S4096 : Shape := ⟨1, ![4096]⟩
abbrev S16x4096 : Shape := ⟨2, ![16, 4096]⟩
abbrev S_ : Shape := ⟨0, ![]⟩
abbrev S16 : Shape := ⟨1, ![16]⟩

abbrev nBuf : Space → Nat
  | .hbm => 22
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x1x4096, .f32⟩
  | .hbm, ⟨4, _⟩ => ⟨S16x1x4096, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S16x3x4096_0_2_1 : S16x4096x3.Transposes [0, 2, 1] S16x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S1024x3_o0_0_S1024x1 : S1024x3.Slices ![0, 0] S1024x1
  slices_S3x4096_o0_0_S1x4096 : S3x4096.Slices ![0, 0] S1x4096
  broadcasts_S1024x1_S1024x4096 : S1024x1.Broadcasts S1024x4096
  broadcasts_S1x4096_S1024x4096 : S1x4096.Broadcasts S1024x4096
  slices_S1024x3_o0_1_S1024x1 : S1024x3.Slices ![0, 1] S1024x1
  slices_S3x4096_o1_0_S1x4096 : S3x4096.Slices ![1, 0] S1x4096
  slices_S1024x3_o0_2_S1024x1 : S1024x3.Slices ![0, 2] S1024x1
  slices_S3x4096_o2_0_S1x4096 : S3x4096.Slices ![2, 0] S1x4096
  reduces_S1024x4096_S1024 : S1024x4096.Reduces [1] S1024
  shapeCasts_S1024_S1024x1 : S1024.ShapeCasts S1024x1
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reduces_S1024x4096_S4096 : S1024x4096.Reduces [0] S4096
  shapeCasts_S4096_S1x4096 : S4096.ShapeCasts S1x4096
  shapeCasts_S16x1x4096_S16x4096 : S16x1x4096.ShapeCasts S16x4096
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x4096, .f32⟩
  | .hbm, ⟨3, _⟩ => ⟨S16x4096x3, .f32⟩
  | .hbm, ⟨4, _⟩ => ⟨S_, .f32⟩
  | .hbm, ⟨5, _⟩ => ⟨S16x4096, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S16x4096x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S_S16x4096x4096 : S_.BroadcastsInDim S16x4096x4096 (![] : Fin 0 → Fin S16x4096x4096.rank)
  bcast_S16x4096x1_S16x4096x4096_0_1_2 : S16x4096x1.BroadcastsInDim S16x4096x4096 (![0, 1, 2] : Fin 3 → Fin S16x4096x4096.rank)
  bcast_S16x4096_S16x1x4096_0_2 : S16x4096.BroadcastsInDim S16x1x4096 (![0, 2] : Fin 2 → Fin S16x1x4096.rank)
  bcast_S16x1x4096_S16x4096x4096_0_1_2 : S16x1x4096.BroadcastsInDim S16x4096x4096 (![0, 1, 2] : Fin 3 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Finite.lean ====
/-
  The finiteness precondition, read back at the extended reals.

  The generated predicate takes two f32[16, 4096, 3] arrays. For each it forms |x| entry by entry, compares
  |x| < c strictly against the constant c whose pattern is 0x7F800000, and takes the conjunction of these
  comparisons over all three axes, starting from 1; its value is the conjunction of the two results.

  At the extended reals [-∞, +∞] the pattern 0x7F800000 (sign 0, exponent all ones, fraction 0) denotes +∞,
  and |x| is max x (-x). For x = +∞ this maximum is +∞, and for x = -∞ it is -(-∞) = +∞ as well, so the
  strict inequality |x| < +∞ fails at both infinities; every other extended real is a real number. A
  conjunction equal to 1 has every conjunct equal to 1. Hence, if the predicate is 1, every entry of both
  arrays is a real number.
-/
import proofs.«144510_j19705309954521_2_alg».proof.Pre_finite_inputs
import Idealize.ShloMosaic.PureOps.Ideal
import Idealize.ShloMosaic.Lib.ReduceAll
import Idealize.ShloMosaic.Lib.ValueIdx

noncomputable section

open Idealize.ShloMosaic

namespace Cert.Chamfer

/-- The f32 pattern 0x7F800000 has sign 0, exponent field 255 = 2^8 - 1 and fraction 0: it denotes +∞. -/
private theorem ofBits_inf_f32 : Ideal.ofBits .f32 0x7F800000#32 = (⊤ : EReal) := by
  simp [Ideal.ofBits, Ideal.ieee]

/-- An extended real x with |x| = max x (-x) strictly below +∞ is a real number: at x = -∞ the maximum is
    -(-∞) = +∞ and at x = +∞ it is +∞, neither of which is strictly below +∞. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- The one-bit word of a truth value is 1 exactly when the truth value is true. -/
private theorem ofBool_eq_one (b : Bool) : BitVec.ofBool b = 1#1 ↔ b = true := by cases b <;> decide

/-- One entry's comparison: if the ordered comparison |x| < c, with c the value of the pattern 0x7F800000,
    answers 1, then x is a real number. -/
private theorem real_of_cmp (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  exact real_of_abs_lt_top x (of_decide_eq_true h)

/-- If the finiteness predicate is 1 at the extended reals, every entry of both arrays is a real number.

    The predicate's value at its one index is the conjunction of two reductions by conjunction, so each
    reduction is 1; a reduction by conjunction over all axes into a result with a single index that is 1 had
    a 1 at every entry; and an entry's 1 is the comparison |x| < +∞ of the lemma above, the broadcast
    constant reading the same scalar at every entry. -/
theorem real_of_pre [Cert.Pre_finite_inputs.Facts]
    (a0 a1 : FVec Ideal Cert.Pre_finite_inputs.S16x4096x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the rank-0 result shape has exactly one index
  haveI : Subsingleton Cert.Pre_finite_inputs.S_.Idx := ⟨fun a b => funext fun d => d.elim0⟩
  have e := congrFun h ValueIdx.ix0
  dsimp only [Cert.Pre_finite_inputs.fn] at e
  obtain ⟨e0, e1⟩ := IntOp.andi_eq_one.1 e
  exact ⟨fun i => real_of_cmp (a0 i) (Host.reduce_andi_all _ _ _ _ _ e0 i),
         fun i => real_of_cmp (a1 i) (Host.reduce_andi_all _ _ _ _ _ e1 i)⟩

end Cert.Chamfer

end
-- ==== Proof.LibMinReduce.lean ====
/-
  Minima taken from +∞ along one axis, on the extended reals: they are infima.

  A float minimum-reduction starts from the word `0x7F800000`, which denotes +∞, and folds `min` over the entries
  that reduce to a result index. On the extended reals `x ≤ min a b` exactly when `x ≤ a` and `x ≤ b`, and +∞ bounds
  nothing, so the lower bounds of such a fold are the common lower bounds of the entries: the fold is their infimum,
  whatever order or grouping it was taken in. Stated for

    * a fold of `min` from +∞ over `Fin N`                                   (`le_fold_min_top`);
    * a kernel's `vector.multi_reduction <minimumf>` over one axis            (`multiReduction_minimumf_single`);
    * a host `stablehlo.reduce` with a `minimum` body over one axis from +∞  (`hostReduce_minimumf_single`);

  the last two at any rank, axis and extents, as the infimum over the dropped axis's coordinates `k` of the source at
  the result index with `k` inserted on that axis. (The library states the maximum's fold; this is the minimum's,
  already closed into an infimum.) Two quantities with the same lower bounds are equal (`eq_iInf_of_le_iff`), which is
  how a minimum accumulated piecewise — tile by tile, or carried across steps — is compared with one taken at once.
-/
import Idealize.ShloMosaic.PureOps.Ideal
import Idealize.ShloMosaic.PureOps.Ideal.Laws
import Idealize.ShloMosaic.PureOps.Reduce

noncomputable section

namespace Cert.LibMinReduce

open Idealize.ShloMosaic

/-- The f32 word `0x7F800000` denotes +∞. -/
theorem ofBits_top : Ideal.ofBits .f32 0x7F800000#32 = (⊤ : EReal) := by
  simp [Ideal.ofBits, Ideal.ieee]

/-- Below a minimum taken from +∞ over a finite family: below every member. -/
theorem le_fold_min_top {N : Nat} (f : Fin N → EReal) (x : EReal) :
    x ≤ (Finset.univ : Finset (Fin N)).fold min (Ideal.ofBits .f32 0x7F800000#32) f ↔ ∀ k, x ≤ f k := by
  rw [ofBits_top, Finset.le_fold_min]
  exact ⟨fun h k => h.2 k (Finset.mem_univ k), fun h => ⟨le_top, fun k _ => h k⟩⟩

/-- A quantity whose lower bounds are exactly the common lower bounds of a family is the family's infimum. -/
theorem eq_iInf_of_le_iff {ι : Type} (v : EReal) (f : ι → EReal) (h : ∀ x, x ≤ v ↔ ∀ k, x ≤ f k) : v = ⨅ k, f k :=
  eq_of_forall_le_iff fun x => by rw [h, le_iInf_iff]

/-- A kernel's float minimum-reduction over ONE axis, from +∞, read at a result index `j`: the infimum over that axis's
    coordinates of the source at `j` with the coordinate inserted. The accumulator's side condition is taken in the
    form a printed program carries it. -/
theorem multiReduction_minimumf_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  refine (multiReduction_minimumf_eq_fold src _ h hφ hacc j).trans ?_
  refine (h.fold_filter_drop_single _ _ src j).trans ?_
  exact eq_iInf_of_le_iff _ _ fun x => le_fold_min_top (N := s.size a) (src ∘ h.lift j) x

/-- A host reduction with a minimum body over ONE axis whose initial value is +∞, read at a result index `j`: the same
    infimum. -/
theorem hostReduce_minimumf_single {s t u : Shape} {a : Fin s.rank} (x : s.Idx → EReal) (init : u.Idx → EReal)
    (h' : s.ReducesTo [a] t) (h : s.Reduces [a] t) (hu : 0 < u.numel)
    (hinit : init (Shape.Idx.first hu) = Ideal.ofBits .f32 0x7F800000#32) (j : t.Idx) :
    Host.reduce (FloatOps.minimumf (F := Ideal) (φ := .f32)) x init h' hu j = ⨅ k : Fin (s.size a), x (h.lift j k) := by
  refine (Host.reduce_eq_fold_single (FloatOps.minimumf (F := Ideal) (φ := .f32)) x init h' h hu j).trans ?_
  rw [hinit]
  exact eq_iInf_of_le_iff _ _ fun y => le_fold_min_top (N := s.size a) (x ∘ h.lift j) y

end Cert.LibMinReduce

end
-- ==== Proof.Spec.lean ====
/-
  The mathematics of the claim, free of any program.

  For two arrays `p`, `t` of shape [16, 4096, 3] (sixteen batches of 4096 points in three coordinates) the squared
  distance between point `n` of `p` and point `q` of `t` in batch `b` is written in two ways:

    * coordinate by coordinate, `((0 + (p₀ - t₀)²) + (p₁ - t₁)²) + (p₂ - t₂)²`            (`distK`);
    * expanded, `((0 + Σₖ pₖ²) - 2 · Σₖ pₖ tₖ) + (0 + Σₖ tₖ²)`                            (`distR`).

  On the extended reals the two differ at infinite entries (the expansion distributes a product over a
  difference); when every entry is a real number they are the same real, by expanding the three squares.

  A minimum over a finite family that starts from +∞ is carried by its universal property: `x` is below it
  exactly when `x` is below every member. Two quantities with the same lower bounds are equal.
-/
import Idealize.ShloMosaic.PureOps.Ideal
import Idealize.ShloMosaic.PureOps.Ideal.Laws
import Idealize.ShloMosaic.Lib.ValueIdx
import proofs.«144510_j19705309954521_2_alg».proof.Proof.LibMinReduce

noncomputable section

namespace Cert.Chamfer

open Idealize.ShloMosaic Idealize.ShloMosaic.ValueIdx

/-- The shape of both arguments. -/
abbrev A3 : Shape := ⟨3, ![16, 4096, 3]⟩

/-- The word `0x40000000` is the real number two. -/
theorem ofBits_two : Ideal.ofBits .f32 0x40000000#32 = ((2 : ℝ) : EReal) := by
  simp [Ideal.ofBits, Ideal.ieee, -EReal.coe_mul]; norm_num

/-- The squared distance, coordinate by coordinate, summed left to right from zero. -/
def distK (p t : A3.Idx → EReal) (b : Fin 16) (n q : Fin 4096) : EReal :=
  Ideal.ofBits .f32 0x00000000#32
    + (p (ix3 b n (0 : Fin 3)) - t (ix3 b q (0 : Fin 3))) * (p (ix3 b n (0 : Fin 3)) - t (ix3 b q (0 : Fin 3)))
    + (p (ix3 b n (1 : Fin 3)) - t (ix3 b q (1 : Fin 3))) * (p (ix3 b n (1 : Fin 3)) - t (ix3 b q (1 : Fin 3)))
    + (p (ix3 b n (2 : Fin 3)) - t (ix3 b q (2 : Fin 3))) * (p (ix3 b n (2 : Fin 3)) - t (ix3 b q (2 : Fin 3)))

/-- The squared distance, expanded: the two squared norms and twice the inner product. -/
def distR (p t : A3.Idx → EReal) (b : Fin 16) (n q : Fin 4096) : EReal :=
  (Ideal.ofBits .f32 0x00000000#32 + ∑ k : Fin 3, p (ix3 b n k) * p (ix3 b n k))
    - Ideal.ofBits .f32 0x40000000#32 * (∑ k : Fin 3, p (ix3 b n k) * t (ix3 b q k))
    + (Ideal.ofBits .f32 0x00000000#32 + ∑ k : Fin 3, t (ix3 b q k) * t (ix3 b q k))

/-- On arrays of real numbers the two forms are the same real: `(a - c)² = a² - 2ac + c²`, three times. -/
theorem distK_eq_distR (p t : A3.Idx → EReal) (hp : ∀ i, ∃ r : ℝ, p i = (r : EReal)) (ht : ∀ i, ∃ r : ℝ, t i = (r : EReal))
    (b : Fin 16) (n q : Fin 4096) : distK p t b n q = distR p t b n q := by
  unfold distK distR
  rw [Fin.sum_univ_three, Fin.sum_univ_three, Fin.sum_univ_three]
  obtain ⟨a0, e0⟩ := hp (ix3 b n (0 : Fin 3))
  obtain ⟨a1, e1⟩ := hp (ix3 b n (1 : Fin 3))
  obtain ⟨a2, e2⟩ := hp (ix3 b n (2 : Fin 3))
  obtain ⟨c0, f0⟩ := ht (ix3 b q (0 : Fin 3))
  obtain ⟨c1, f1⟩ := ht (ix3 b q (1 : Fin 3))
  obtain ⟨c2, f2⟩ := ht (ix3 b q (2 : Fin 3))
  rw [e0, e1, e2, f0, f1, f2, Ideal.ofBits_zero_f32, ofBits_two]
  simp only [← EReal.coe_sub, ← EReal.coe_mul, ← EReal.coe_add, ← EReal.coe_zero]
  exact congrArg _ (by ring)

/- The facts about minima taken from +∞ (that the word `0x7F800000` is +∞; that such a minimum's lower bounds are the
   common lower bounds of the family; that a quantity with those lower bounds is the family's infimum) are general and
   stated in their own module; they are used under the same names here. -/
export Cert.LibMinReduce (ofBits_top le_fold_min_top eq_iInf_of_le_iff)

/-- The least squared distance from point `n` of `p` to a point of `t`, and from point `q` of `t` to a point of `p`. -/
def rowMin (D : Fin 16 → Fin 4096 → Fin 4096 → EReal) (b : Fin 16) (n : Fin 4096) : EReal := ⨅ q, D b n q
def colMin (D : Fin 16 → Fin 4096 → Fin 4096 → EReal) (b : Fin 16) (q : Fin 4096) : EReal := ⨅ n, D b n q

end Cert.Chamfer

end
-- ==== Proof.Tail.lean ====
/-
  The last stretch of both programs is one function of two arrays `R`, `C` of shape [16, 4096]:

      tail R C = ( Σ_b ( (Σ_n R[b, n]) / 4096 + (Σ_q C[b, q]) / 4096 ) ) / 16,

  every sum taken from zero. The kernel's program applies it to the two arrays its region leaves, the reference to
  its two minima; it is stated once, so that equal arrays give equal results without the sums ever being opened.
  The side conditions of its operations (which axes the sums drop, how the scalar 4096 is broadcast) are arguments:
  each program supplies its own witnesses, and any two witnesses of a proposition are equal.
-/
import Idealize.ShloMosaic.PureOps.Ideal
import Idealize.ShloMosaic.Lib.ValueIdx

noncomputable section

namespace Cert.Chamfer

open Idealize.ShloMosaic

abbrev T2 : Shape := ⟨2, ![16, 4096]⟩
abbrev T1 : Shape := ⟨1, ![16]⟩
abbrev T0 : Shape := ⟨0, ![]⟩

/-- Row averages of `R` and of `C`, added, then averaged over the sixteen batches. -/
def tail (hr1 : T2.ReducesTo [1] T1) (hr0 : T1.ReducesTo [0] T0) (hb : T0.BroadcastsInDim T1 (![] : Fin 0 → Fin 1))
    (h0 : 0 < T0.numel) (R C : FVec Ideal T2 .f32) : FVec Ideal T0 .f32 :=
  Host.divf (F := Ideal)
    (Host.reduceAdd (F := Ideal)
      (addf (F := Ideal)
        (Host.divf (F := Ideal)
          (Host.reduceAdd (F := Ideal) R (constant (F := Ideal) T0 .f32 0x00000000#32) hr1 h0)
          (broadcastInDim T1 ![] hb (constant (F := Ideal) T0 .f32 0x45800000#32)))
        (Host.divf (F := Ideal)
          (Host.reduceAdd (F := Ideal) C (constant (F := Ideal) T0 .f32 0x00000000#32) hr1 h0)
          (broadcastInDim T1 ![] hb (constant (F := Ideal) T0 .f32 0x45800000#32))))
      (constant (F := Ideal) T0 .f32 0x00000000#32) hr0 h0)
    (constant (F := Ideal) T0 .f32 0x41800000#32)

end Cert.Chamfer

end
-- ==== Proof.RefSide.lean ====
/-
  The reference's program, read as mathematics.

  For batch b, point n of the first array p and point q of the second array t, its first operations build the
  EXPANDED squared distance

      D[b, n, q] = ((0 + Σₖ p[b,n,k]²) - 2 · Σₖ p[b,n,k] · t[b,q,k]) + (0 + Σₖ t[b,q,k]²):

  the two squared norms are sums over the coordinate axis started from zero, each broadcast along the other
  point's axis; the inner products are a batched contraction over the coordinate axis; the scalar two is
  broadcast to every entry; the difference is taken before the second norm is added. Two minima started from
  +∞ follow, over q for each (b, n) and over n for each (b, q). A minimum started from +∞ over a finite family
  has exactly the family's common lower bounds as its lower bounds, so it is the family's infimum. The remaining
  operations are, term for term, the shared tail applied to the two arrays of minima.
-/
import proofs.«144510_j19705309954521_2_alg».proof.Proof.Gen.ReferenceIdeal.Read
import proofs.«144510_j19705309954521_2_alg».proof.Proof.Spec
import proofs.«144510_j19705309954521_2_alg».proof.Proof.Tail
import Idealize.ShloMosaic.PureOps.Reduce
import Idealize.ShloMosaic.PureOps.Ideal.Laws
import Idealize.ShloMosaic.Lib.ValueIdx

noncomputable section

namespace Cert.Chamfer.Ref

open Cert.ReferenceIdeal Cert.ReferenceIdeal.Gen Cert.ReferenceIdeal.Read Idealize.ShloMosaic Idealize.ShloMosaic.ValueIdx Cert.Chamfer

/-! ## Where each entry of the distance array reads its operands

Entry (b, n, q) of the [16, 4096, 4096] array reads the first squared norm at (b, n), through a broadcast that adds a
unit axis and one that stretches it; the second squared norm at (b, q), likewise through a unit middle axis; and the
contraction's two operands at (b, n, k) and (b, q, k). Each identity is checked coordinate by coordinate. -/

/-- The first squared norm's summand k, seen from entry (b, n, q), is the first array's entry (b, n, k). -/
theorem idx_sq0 (b : Fin 16) (n q : Fin 4096) (k : Fin 3) :
    idx_main_v2 (idx_main_v5 (idx_main_v8 (ix3 b n q))) k = ix3 b n k :=
  funext fun a => Fin.ext (by match a with | ⟨0, _⟩ => rfl | ⟨1, _⟩ => rfl | ⟨2, _⟩ => rfl)

/-- The second squared norm's summand k, seen from entry (b, n, q), is the second array's entry (b, q, k). -/
theorem idx_sq1 (b : Fin 16) (n q : Fin 4096) (k : Fin 3) :
    idx_main_v4 (idx_main_v10 (idx_main_v11 (ix3 b n q))) k = ix3 b q k :=
  funext fun a => Fin.ext (by match a with | ⟨0, _⟩ => rfl | ⟨1, _⟩ => rfl | ⟨2, _⟩ => rfl)

/-- The contraction's left operand at entry (b, n, q), term k, is the first array's entry (b, n, k). -/
theorem idx_l (b : Fin 16) (n q : Fin 4096) (k : Fin 3) : lidx_main_v0 (ix3 b n q) k = ix3 b n k :=
  funext fun a => Fin.ext (by match a with | ⟨0, _⟩ => rfl | ⟨1, _⟩ => rfl | ⟨2, _⟩ => rfl)

/-- The contraction's right operand at entry (b, n, q), term k, is the second array's entry (b, q, k). -/
theorem idx_r (b : Fin 16) (n q : Fin 4096) (k : Fin 3) : ridx_main_v0 (ix3 b n q) k = ix3 b q k :=
  funext fun a => Fin.ext (by match a with | ⟨0, _⟩ => rfl | ⟨1, _⟩ => rfl | ⟨2, _⟩ => rfl)

/-! ## The distance array -/

/-- Entry (b, n, q) of the array the minima are taken of is the expanded squared distance between point n of the
    first array and point q of the second in batch b: the operations are read one by one, outermost first, down to
    the two arguments, and what is left is the expansion with its summands and factors in the same order. -/
theorem dist_apply (x0 x1 : (⟨S16x4096x3, .f32⟩ : BufTy).Contents (Elt Ideal)) (b : Fin 16) (n q : Fin 4096) :
    val_main_v12 (F := Ideal) x0 x1 (ix3 b n q) = distR x0 x1 b n q := by
  rw [val_main_v12_apply, val_main_v9_apply, val_main_v8_apply, val_main_v5_apply, val_main_v2_apply,
    val_main_v7_apply, val_main_v6_apply, val_main_v0_apply, val_main_v11_apply, val_main_v10_apply, val_main_v4_apply]
  simp only [val_main_v1_apply, val_main_v3_apply, val_main_cst_apply, val_main_cst_0_apply, val_main_cst_1_apply,
    Ideal.addf_def, Ideal.subf_def, Ideal.mulf_def, Ideal.ofBits_def, idx_sq0, idx_sq1, idx_l, idx_r]
  rfl

/-! ## The two minima

A reduction over one axis is, at each result index, the fold from the initial value over that axis's coordinates,
the result index with the coordinate inserted on the dropped axis. Dropping the last axis, (b, n) with q inserted is
(b, n, q); dropping the middle axis, (b, q) with n inserted is (b, n, q). -/

theorem red2 : S16x4096x4096.Reduces [2] S16x4096 := by decide
theorem red1 : S16x4096x4096.Reduces [1] S16x4096 := by decide

/-- Inserting q on the last axis of (b, n) gives (b, n, q). -/
theorem lift2 (b : Fin 16) (n q : Fin 4096) : red2.lift (ix2 b n) q = ix3 b n q :=
  funext fun a => Fin.ext (by match a with | ⟨0, _⟩ => rfl | ⟨1, _⟩ => rfl | ⟨2, _⟩ => rfl)

/-- Inserting n on the middle axis of (b, q) gives (b, n, q). -/
theorem lift1 (b : Fin 16) (q n : Fin 4096) : red1.lift (ix2 b q) n = ix3 b n q :=
  funext fun a => Fin.ext (by match a with | ⟨0, _⟩ => rfl | ⟨1, _⟩ => rfl | ⟨2, _⟩ => rfl)

/-- The minimum over the last axis at (b, n): the fold of min from +∞ over q of D[b, n, q], whose lower bounds are
    the common lower bounds of the D[b, n, q], hence their infimum. -/
theorem rowMin_at (x0 x1 : (⟨S16x4096x3, .f32⟩ : BufTy).Contents (Elt Ideal)) (b : Fin 16) (n : Fin 4096) :
    val_main_v13 (F := Ideal) x0 x1 (ix2 b n) = rowMin (distR x0 x1) b n := by
  unfold val_main_v13
  rw [Host.reduce_eq_fold_single _ _ _ reducesTo_S16x4096x4096_S16x4096_d2 red2 h_S_ (ix2 b n)]
  have hf : (val_main_v12 (F := Ideal) x0 x1 ∘ red2.lift (ix2 b n)) = fun q : Fin 4096 => distR x0 x1 b n q :=
    funext fun q => (congrArg (val_main_v12 (F := Ideal) x0 x1) (lift2 b n q)).trans (dist_apply x0 x1 b n q)
  rw [hf]
  exact eq_iInf_of_le_iff _ _ fun x => le_fold_min_top (fun q : Fin 4096 => distR x0 x1 b n q) x

/-- The minimum over the middle axis at (b, q): the infimum over n of D[b, n, q], in the same way. -/
theorem colMin_at (x0 x1 : (⟨S16x4096x3, .f32⟩ : BufTy).Contents (Elt Ideal)) (b : Fin 16) (q : Fin 4096) :
    val_main_v14 (F := Ideal) x0 x1 (ix2 b q) = colMin (distR x0 x1) b q := by
  unfold val_main_v14
  rw [Host.reduce_eq_fold_single _ _ _ reducesTo_S16x4096x4096_S16x4096_d1 red1 h_S_ (ix2 b q)]
  have hf : (val_main_v12 (F := Ideal) x0 x1 ∘ red1.lift (ix2 b q)) = fun n : Fin 4096 => distR x0 x1 b n q :=
    funext fun n => (congrArg (val_main_v12 (F := Ideal) x0 x1) (lift1 b q n)).trans (dist_apply x0 x1 b n q)
  rw [hf]
  exact eq_iInf_of_le_iff _ _ fun x => le_fold_min_top (fun n : Fin 4096 => distR x0 x1 b n q) x

/-- The array of minima over the second array's points: at (b, n), the least expanded squared distance from point n
    of the first array to a point of the second (every index of a [16, 4096] array is the pair of its coordinates). -/
theorem rowMin_eq (x0 x1 : (⟨S16x4096x3, .f32⟩ : BufTy).Contents (Elt Ideal)) :
    val_main_v13 (F := Ideal) x0 x1 = fun i => rowMin (distR x0 x1) (i 0) (i 1) :=
  funext fun i => (congrArg (val_main_v13 (F := Ideal) x0 x1) (eq_ix2 i)).trans (rowMin_at x0 x1 (i 0) (i 1))

/-- The array of minima over the first array's points: at (b, q), the least expanded squared distance from point q
    of the second array to a point of the first. -/
theorem colMin_eq (x0 x1 : (⟨S16x4096x3, .f32⟩ : BufTy).Contents (Elt Ideal)) :
    val_main_v14 (F := Ideal) x0 x1 = fun i => colMin (distR x0 x1) (i 0) (i 1) :=
  funext fun i => (congrArg (val_main_v14 (F := Ideal) x0 x1) (eq_ix2 i)).trans (colMin_at x0 x1 (i 0) (i 1))

/-! ## The result -/

/-- After the two minima the program is the shared tail of them, operation for operation: the two arrays of minima
    are kept as they stand, so nothing of them is opened. -/
theorem result_tail (x0 x1 : (⟨S16x4096x3, .f32⟩ : BufTy).Contents (Elt Ideal)) :
    val_main_v23 (F := Ideal) x0 x1
      = tail reducesTo_S16x4096_S16_d1 reducesTo_S16_S_d0 bcast_S_S16 h_S_
          (val_main_v13 (F := Ideal) x0 x1) (val_main_v14 (F := Ideal) x0 x1) := rfl

/-- The reference's result is the shared tail of the two arrays of minima of the expanded squared distance. -/
theorem result_eq (x0 x1 : (⟨S16x4096x3, .f32⟩ : BufTy).Contents (Elt Ideal)) :
    val_main_v23 (F := Ideal) x0 x1
      = tail reducesTo_S16x4096_S16_d1 reducesTo_S16_S_d0 bcast_S_S16 h_S_
          (fun i => rowMin (distR x0 x1) (i 0) (i 1)) (fun i => colMin (distR x0 x1) (i 0) (i 1)) := by
  rw [result_tail, rowMin_eq, colMin_eq]

end Cert.Chamfer.Ref

end
-- ==== Proof.KPieces.lean ====
/-
  What one run of the body leaves in the two output blocks, as values of the blocks it loads.

  The body reads a block `x0` of 1024 points of the first array and the block `x1` of all 4096 points of the
  (transposed) second array, forms the 1024 × 4096 tile of squared distances, and

    * stores the tile's row minima, laid out as one row, in the first output block — at every grid point;
    * keeps a running minimum of the tile's column minima in the second output block: at the first of the four
      points of a batch it stores +∞ there, reads it back, and stores the minimum of that and the tile's column
      minima; at the other three it reads what the point before left (`xo3`) and stores the minimum of that and
      the tile's column minima.

  Each lemma reads the stores the run found back as one value: a block stored whole is its payload, a block stored
  twice is its last payload, and a load of a block stored whole is what was stored. Nothing here depends on what a
  float is.
-/
import proofs.«144510_j19705309954521_2_alg».proof.Proof.Gen.KernelIdeal.Frame
import Idealize.ShloMosaic.Lib.Pipeline.Value
import Idealize.ShloMosaic.Lib.Tactic

noncomputable section

namespace Cert.Chamfer.K

open Idealize.ShloMosaic Idealize.ShloMosaic.TcCoe Idealize.SL.Sem Idealize.ShloMosaic.Tactic
open Cert.KernelIdeal Cert.KernelIdeal.Gen

variable {F : FTy → Type} [FloatOps F]

/-- The zero offsets of a rank-3 block. -/
theorem hz3 : (![0, 0, 0] : Fin 3 → Nat) = fun _ => 0 := funext fun a => by fin_cases a <;> rfl

/-- First point of a batch, first output: the row minima of the tile. -/
theorem out_A_2 (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (hc0 : cond0_0 i)
    (x0 : Vec F S1x1024x3 .f32) (x1 : Vec F S1x3x4096 .f32) :
    out0_A_2 c i arg2 harg2 arg3 harg3 arg4 harg4 arg5 harg5 hc0 x0 x1 = k0_pay3 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz3]
  simp only [View.readAt_eq_ld, harg2.read_unread, harg3.read_unread, View.ld_unit_zero (S := S1x1024x3) hz3,
    View.ld_unit_zero (S := S1x3x4096) hz3]

/-- A later point of a batch, first output: the row minima of the tile, again. -/
theorem out_B_2 (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (hc0 : ¬cond0_0 i)
    (x0 : Vec F S1x1024x3 .f32) (x1 : Vec F S1x3x4096 .f32) (xo3 : Vec F S1x1x4096 .f32) :
    out0_B_2 c i arg2 harg2 arg3 harg3 arg4 harg4 arg5 harg5 hc0 x0 x1 xo3 = k0_pay3 x0 x1 := by
  unfold out0_B_2
  rw [View.read_writes_eq_canon _ _ _ (cover0_B_2 c i arg2 harg2 arg3 harg3 arg4 harg4 arg5 harg5 hc0 x0 x1 xo3)]
  unfold kernelRun0_B
  dsimp only
  sl_unfold_words
  rw [View.canon_unit_zero hz3]
  simp only [View.readAt_eq_ld, harg2.read_unread, harg3.read_unread, View.ld_unit_zero (S := S1x1024x3) hz3,
    View.ld_unit_zero (S := S1x3x4096) hz3]

/-- First point of a batch, second output: the minimum of the stored +∞ block, read back, and the tile's column minima. -/
theorem out_A_3 (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (hc0 : cond0_0 i)
    (x0 : Vec F S1x1024x3 .f32) (x1 : Vec F S1x3x4096 .f32) :
    out0_A_3 c i arg2 harg2 arg3 harg3 arg4 harg4 arg5 harg5 hc0 x0 x1 = k0_pay1 (k0_pay5 x0 x1) (k0_pay6 (k0_pay4 (F := F))) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x4096) hz3, View.readCov_unit_zero (S := S1x1x4096) _ hz3]
  simp only [View.readAt_eq_ld, harg2.read_unread, harg3.read_unread, View.ld_unit_zero (S := S1x1024x3) hz3,
    View.ld_unit_zero (S := S1x3x4096) hz3]

/-- A later point of a batch, second output: the minimum of what the point before left and the tile's column minima. -/
theorem out_B_3 (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (hc0 : ¬cond0_0 i)
    (x0 : Vec F S1x1024x3 .f32) (x1 : Vec F S1x3x4096 .f32) (xo3 : Vec F S1x1x4096 .f32) :
    out0_B_3 c i arg2 harg2 arg3 harg3 arg4 harg4 arg5 harg5 hc0 x0 x1 xo3 = k0_pay1 (k0_pay5 x0 x1) (k0_pay6 xo3) := by
  unfold out0_B_3
  rw [View.read_writes_eq_canon _ _ _ (cover0_B_3 c i arg2 harg2 arg3 harg3 arg4 harg4 arg5 harg5 hc0 x0 x1 xo3)]
  unfold kernelRun0_B
  dsimp only
  sl_unfold_words
  rw [View.canon_unit_zero hz3]
  simp only [View.readAt_eq_ld, harg2.read_unread, harg3.read_unread, harg5.read_unread,
    View.ld_unit_zero (S := S1x1024x3) hz3, View.ld_unit_zero (S := S1x3x4096) hz3, View.ld_unit_zero (S := S1x1x4096) hz3]

end Cert.Chamfer.K

end
-- ==== Proof.KPayload.lean ====
/-
  The body's arithmetic, entry by entry, on the extended reals.

  With `x0` the block of 1024 points (coordinates on the last axis) and `x1` the block of 4096 points of the
  transposed array (coordinates on the middle axis):

    * the tile's entry (r, q) is  ((0 + (x0[r,0] - x1[0,q])²) + (x0[r,1] - x1[1,q])²) + (x0[r,2] - x1[2,q])²  (`tile`);
    * the first output's entry r is the infimum over q of the tile's row r;
    * the tile's column minima are the infimum over r of the tile's column q, and the second output's entry q is the
      minimum of what the block held before (or of +∞, at the first point of a batch) and that infimum.

  A minimum taken from +∞ along one axis is the infimum over that axis's coordinates, because its lower bounds are
  the common lower bounds of the entries; the layout operations between (dropping or adding a unit axis, taking a
  column or a row, repeating it along the other axis, transposing a column into a row) only move an entry.
-/
import proofs.«144510_j19705309954521_2_alg».proof.Proof.Gen.KernelIdeal.Skeleton
import proofs.«144510_j19705309954521_2_alg».proof.Proof.Spec
import Idealize.ShloMosaic.Lib.Pipeline.Value
import Idealize.ShloMosaic.Lib.ValueIdx
import Idealize.ShloMosaic.PureOps.Reduce
import Idealize.ShloMosaic.PureOps.Ideal.Laws

noncomputable section

namespace Cert.Chamfer.K

open Idealize.ShloMosaic Idealize.ShloMosaic.ValueIdx
open Cert.KernelIdeal Cert.KernelIdeal.Gen Cert.Chamfer

/-! ## Moving an entry through the layout operations -/

/-- Coordinate `k` of point `r` of the block, taken as a column and repeated along the 4096 columns. -/
theorem predCol {α : Type} (x0 : S1x1024x3.Idx → α) (k : Fin 3) (off : Fin 2 → Nat) (hoff : off = ![0, k.val])
    (h1 : S1x1024x3.ShapeCasts S1024x3) (h2 : S1024x3.Slices off S1024x1) (h3 : S1024x1.Broadcasts S1024x4096)
    (r : Fin 1024) (q : Fin 4096) :
    broadcastTo S1024x4096 (extractStridedSlice S1024x1 off (shapeCast S1024x3 x0 h1) h2) h3 (ix2 r q)
      = x0 (ix3 (0 : Fin 1) r k) := by
  subst hoff
  refine (broadcastTo_apply _ h3 (ix2 r q) (ix2 r (0 : Fin 1)) ?_).trans ?_
  · intro a
    match a with
    | ⟨0, _⟩ => show r.val = if (1024 : Nat) = 1 then 0 else r.val; rw [if_neg (by decide)]
    | ⟨1, _⟩ => show 0 = if (1 : Nat) = 1 then 0 else q.val; rw [if_pos rfl]
  refine (extractStridedSlice_apply _ _ h2 (ix2 r (0 : Fin 1)) (ix2 r k) ?_).trans ?_
  · intro a
    match a with
    | ⟨0, _⟩ => show r.val = 0 + r.val; omega
    | ⟨1, _⟩ => show k.val = k.val + 0; omega
  refine shapeCast_apply x0 h1 (ix2 r k) (ix3 (0 : Fin 1) r k) ?_
  rw [Shape.rowMajor_val_three, Shape.rowMajor_val_two]
  show (0 * 1024 + r.val) * 3 + k.val = r.val * 3 + k.val
  omega

/-- Coordinate `k` of point `q` of the transposed block, taken as a row and repeated along the 1024 rows. -/
theorem targRow {α : Type} (x1 : S1x3x4096.Idx → α) (k : Fin 3) (off : Fin 2 → Nat) (hoff : off = ![k.val, 0])
    (h1 : S1x3x4096.ShapeCasts S3x4096) (h2 : S3x4096.Slices off S1x4096) (h3 : S1x4096.Broadcasts S1024x4096)
    (r : Fin 1024) (q : Fin 4096) :
    broadcastTo S1024x4096 (extractStridedSlice S1x4096 off (shapeCast S3x4096 x1 h1) h2) h3 (ix2 r q)
      = x1 (ix3 (0 : Fin 1) k q) := by
  subst hoff
  refine (broadcastTo_apply _ h3 (ix2 r q) (ix2 (0 : Fin 1) q) ?_).trans ?_
  · intro a
    match a with
    | ⟨0, _⟩ => show 0 = if (1 : Nat) = 1 then 0 else r.val; rw [if_pos rfl]
    | ⟨1, _⟩ => show q.val = if (4096 : Nat) = 1 then 0 else q.val; rw [if_neg (by decide)]
  refine (extractStridedSlice_apply _ _ h2 (ix2 (0 : Fin 1) q) (ix2 k q) ?_).trans ?_
  · intro a
    match a with
    | ⟨0, _⟩ => show k.val = k.val + 0; omega
    | ⟨1, _⟩ => show q.val = 0 + q.val; omega
  refine shapeCast_apply x1 h1 (ix2 k q) (ix3 (0 : Fin 1) k q) ?_
  rw [Shape.rowMajor_val_three, Shape.rowMajor_val_two]
  show (0 * 3 + k.val) * 4096 + q.val = k.val * 4096 + q.val
  omega

/-! ## The tile -/

/-- The tile's entry (r, q): the squared distance between point `r` of `x0` and point `q` of `x1`, coordinate by coordinate. -/
def tile (x0 : S1x1024x3.Idx → EReal) (x1 : S1x3x4096.Idx → EReal) (r : Fin 1024) (q : Fin 4096) : EReal :=
  Ideal.ofBits .f32 0x00000000#32
    + (x0 (ix3 (0 : Fin 1) r (0 : Fin 3)) - x1 (ix3 (0 : Fin 1) (0 : Fin 3) q)) * (x0 (ix3 (0 : Fin 1) r (0 : Fin 3)) - x1 (ix3 (0 : Fin 1) (0 : Fin 3) q))
    + (x0 (ix3 (0 : Fin 1) r (1 : Fin 3)) - x1 (ix3 (0 : Fin 1) (1 : Fin 3) q)) * (x0 (ix3 (0 : Fin 1) r (1 : Fin 3)) - x1 (ix3 (0 : Fin 1) (1 : Fin 3) q))
    + (x0 (ix3 (0 : Fin 1) r (2 : Fin 3)) - x1 (ix3 (0 : Fin 1) (2 : Fin 3) q)) * (x0 (ix3 (0 : Fin 1) r (2 : Fin 3)) - x1 (ix3 (0 : Fin 1) (2 : Fin 3) q))

theorem pay2_apply (x0 : Vec Ideal S1x1024x3 .f32) (x1 : Vec Ideal S1x3x4096 .f32) (r : Fin 1024) (q : Fin 4096) :
    k0_pay2 (F := Ideal) x0 x1 (ix2 r q) = tile x0 x1 r q := by
  have a0 := predCol x0 (0 : Fin 3) ![0, 0] rfl shapeCasts_S1x1024x3_S1024x3 slices_S1024x3_o0_0_S1024x1 broadcasts_S1024x1_S1024x4096 r q
  have a1 := predCol x0 (1 : Fin 3) ![0, 1] rfl shapeCasts_S1x1024x3_S1024x3 slices_S1024x3_o0_1_S1024x1 broadcasts_S1024x1_S1024x4096 r q
  have a2 := predCol x0 (2 : Fin 3) ![0, 2] rfl shapeCasts_S1x1024x3_S1024x3 slices_S1024x3_o0_2_S1024x1 broadcasts_S1024x1_S1024x4096 r q
  have b0 := targRow x1 (0 : Fin 3) ![0, 0] rfl shapeCasts_S1x3x4096_S3x4096 slices_S3x4096_o0_0_S1x4096 broadcasts_S1x4096_S1024x4096 r q
  have b1 := targRow x1 (1 : Fin 3) ![1, 0] rfl shapeCasts_S1x3x4096_S3x4096 slices_S3x4096_o1_0_S1x4096 broadcasts_S1x4096_S1024x4096 r q
  have b2 := targRow x1 (2 : Fin 3) ![2, 0] rfl shapeCasts_S1x3x4096_S3x4096 slices_S3x4096_o2_0_S1x4096 broadcasts_S1x4096_S1024x4096 r q
  unfold k0_pay2 tile
  show (Ideal.ofBits .f32 0x00000000#32 + (_ - _) * (_ - _) + (_ - _) * (_ - _) + (_ - _) * (_ - _) : EReal) = _
  rw [a0, a1, a2, b0, b1, b2]

/-! ## A minimum from +∞ along one axis of the tile -/

/-- Along the columns of row `r`. -/
theorem rowRed (src : FVec Ideal S1024x4096 .f32) (h : S1024x4096.Reduces [1] S1024) (hφ : FKind.Formats .f32)
    (hacc : (0x7F800000#32 : BitVec 32) = FKind.minimumf.neutral .f32 hφ) (r : Fin 1024) :
    multiReduction .minimumf [1] S1024 src 0x7F800000#32 h hφ hacc (ix1 r) = ⨅ q : Fin 4096, src (ix2 r q) := by
  refine (Cert.LibMinReduce.multiReduction_minimumf_single src h hφ hacc (ix1 r)).trans ?_
  have e : ∀ q : Fin 4096, h.lift (ix1 r) q = ix2 r q := fun q => funext fun a => Fin.ext (by
    match a with
    | ⟨0, _⟩ => rfl
    | ⟨1, _⟩ => rfl)
  exact iInf_congr fun q => congrArg src (e q)

/-- Along the rows of column `q`. -/
theorem colRed (src : FVec Ideal S1024x4096 .f32) (h : S1024x4096.Reduces [0] S4096) (hφ : FKind.Formats .f32)
    (hacc : (0x7F800000#32 : BitVec 32) = FKind.minimumf.neutral .f32 hφ) (q : Fin 4096) :
    multiReduction .minimumf [0] S4096 src 0x7F800000#32 h hφ hacc (ix1 q) = ⨅ r : Fin 1024, src (ix2 r q) := by
  refine (Cert.LibMinReduce.multiReduction_minimumf_single src h hφ hacc (ix1 q)).trans ?_
  have e : ∀ r : Fin 1024, h.lift (ix1 q) r = ix2 r q := fun r => funext fun a => Fin.ext (by
    match a with
    | ⟨0, _⟩ => rfl
    | ⟨1, _⟩ => rfl)
  exact iInf_congr fun r => congrArg src (e r)

/-! ## The two stored values -/

/-- The first output's entry `r`: the least entry of the tile's row `r` (stored as a row, through a column and a transpose). -/
theorem pay3_apply (x0 : Vec Ideal S1x1024x3 .f32) (x1 : Vec Ideal S1x3x4096 .f32) (r : Fin 1024) :
    k0_pay3 (F := Ideal) x0 x1 (ix3 (0 : Fin 1) (0 : Fin 1) r) = ⨅ q : Fin 4096, tile x0 x1 r q := by
  unfold k0_pay3
  refine (shapeCast_apply _ shapeCasts_S1x1024_S1x1x1024 (ix3 (0 : Fin 1) (0 : Fin 1) r) (ix2 (0 : Fin 1) r) ?_).trans ?_
  · rw [Shape.rowMajor_val_three, Shape.rowMajor_val_two]
    show 0 * 1024 + r.val = (0 * 1 + 0) * 1024 + r.val
    omega
  refine (transpose_apply _ _ transposes_S1024x1_p1_0_S1x1024 (ix2 (0 : Fin 1) r) (ix2 r (0 : Fin 1)) ?_).trans ?_
  · intro b
    match b with
    | ⟨0, _⟩ => rfl
    | ⟨1, _⟩ => rfl
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (rowRed _ _ _ _ r).trans ?_
  exact iInf_congr fun q => pay2_apply x0 x1 r q

/-- The tile's column minima, entry `q`: the least entry of the tile's column `q`. -/
theorem pay5_apply (x0 : Vec Ideal S1x1024x3 .f32) (x1 : Vec Ideal S1x3x4096 .f32) (q : Fin 4096) :
    k0_pay5 (F := Ideal) x0 x1 (ix2 (0 : Fin 1) q) = ⨅ r : Fin 1024, tile x0 x1 r q := by
  unfold k0_pay5
  refine (shapeCast_apply _ shapeCasts_S4096_S1x4096 (ix2 (0 : Fin 1) q) (ix1 q) ?_).trans ?_
  · rw [Shape.rowMajor_val_one, Shape.rowMajor_val_two]
    show q.val = 0 * 4096 + q.val
    omega
  refine (colRed _ _ _ _ q).trans ?_
  exact iInf_congr fun r => pay2_apply x0 x1 r q

/-- The second output's entry `q`: the minimum of what the block held (`xo3`) and the tile's column minimum. -/
theorem colStep (x0 : Vec Ideal S1x1024x3 .f32) (x1 : Vec Ideal S1x3x4096 .f32) (xo3 : Vec Ideal S1x1x4096 .f32) (q : Fin 4096) :
    k0_pay1 (F := Ideal) (k0_pay5 x0 x1) (k0_pay6 xo3) (ix3 (0 : Fin 1) (0 : Fin 1) q)
      = min (xo3 (ix3 (0 : Fin 1) (0 : Fin 1) q)) (⨅ r : Fin 1024, tile x0 x1 r q) := by
  unfold k0_pay1
  refine (shapeCast_apply _ shapeCasts_S1x4096_S1x1x4096 (ix3 (0 : Fin 1) (0 : Fin 1) q) (ix2 (0 : Fin 1) q) ?_).trans ?_
  · rw [Shape.rowMajor_val_three, Shape.rowMajor_val_two]
    show 0 * 4096 + q.val = (0 * 1 + 0) * 4096 + q.val
    omega
  refine (minimumf_apply _ _ _).trans ?_
  refine congrArg₂ min ?_ (pay5_apply x0 x1 q)
  unfold k0_pay6
  refine shapeCast_apply _ shapeCasts_S1x1x4096_S1x4096 (ix2 (0 : Fin 1) q) (ix3 (0 : Fin 1) (0 : Fin 1) q) ?_
  rw [Shape.rowMajor_val_three, Shape.rowMajor_val_two]
  show (0 * 1 + 0) * 4096 + q.val = 0 * 4096 + q.val
  omega

/-- The block of +∞ the first point of a batch stores. -/
theorem pay4_apply (q : Fin 4096) : k0_pay4 (F := Ideal) (ix3 (0 : Fin 1) (0 : Fin 1) q) = (⊤ : EReal) := by
  unfold k0_pay4
  refine (shapeCast_apply _ shapeCasts_S1x4096_S1x1x4096 (ix3 (0 : Fin 1) (0 : Fin 1) q) (ix2 (0 : Fin 1) q) ?_).trans ?_
  · rw [Shape.rowMajor_val_three, Shape.rowMajor_val_two]
    show 0 * 4096 + q.val = (0 * 1 + 0) * 4096 + q.val
    omega
  exact ofBits_top

end Cert.Chamfer.K

end
-- ==== Proof.KAccum.lean ====
/-
  What the two output blocks hold after each grid point, on the extended reals.

  The 64 grid points are sixteen batches of four consecutive points; point `t` works on the tile `tileAt t` of
  squared distances between the 1024 points of its block of the first array and the 4096 points of its batch of the
  second.

    * The first output block after point `t` holds the row minima of `tileAt t`, whichever case the point is in.
    * The second output block is a running minimum. After point `n` its entry `q` is the least entry of column `q`
      over the tiles of the points from the first point of `n`'s batch up to `n`: at the first point of a batch the
      block restarts from +∞, which bounds nothing, and at each later point the new column minimum is joined to
      what the point before left. Stated by lower bounds (`x` is below the entry exactly when `x` is below every
      entry of column `q` of each of those tiles), the induction on the point needs no re-indexing.
-/
import proofs.«144510_j19705309954521_2_alg».proof.Proof.KPieces
import proofs.«144510_j19705309954521_2_alg».proof.Proof.KPayload

noncomputable section

namespace Cert.Chamfer.K

open Idealize.ShloMosaic Idealize.ShloMosaic.TcCoe Idealize.SL.Sem Idealize.ShloMosaic.ValueIdx
open Cert.KernelIdeal Cert.KernelIdeal.Gen Cert.Chamfer

variable (m : (ℓ : Loc nD τ sig) → Buf (Elt Ideal) ℓ)

/-- The tile of squared distances grid point `t` works on. -/
def tileAt (c : Dev nD) (t : Fin cfg0.N) (r : Fin 1024) (q : Fin 4096) : EReal :=
  tile (iblk m c 0 t) (iblk m c 1 t) r q

/-- After any point the first output block holds the row minima of the point's tile. -/
theorem outs_fst (c : Dev nD) (t : Fin cfg0.N) :
    (outsAt0 m c t.val t.isLt).1 = k0_pay3 (F := Ideal) (iblk m c 0 t) (iblk m c 1 t) := by
  by_cases h0 : t.val % 4 = 0
  · rw [outsAt0_A m c t h0]
    dsimp only
    exact out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  · rw [outsAt0_B m c t h0]
    dsimp only
    exact out_B_2 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2

/-- Its entry `r`: the least entry of row `r` of the point's tile. -/
theorem outs_fst_apply (c : Dev nD) (t : Fin cfg0.N) (r : Fin 1024) :
    (outsAt0 m c t.val t.isLt).1 (ix3 (0 : Fin 1) (0 : Fin 1) r) = ⨅ q : Fin 4096, tileAt m c t r q := by
  rw [outs_fst m c t]
  exact pay3_apply (iblk m c 0 t) (iblk m c 1 t) r

/-- At the first point of a batch the second output block restarts: the lower bounds of its entry `q` are the lower
    bounds of column `q` of the point's tile. -/
theorem snd_first (c : Dev nD) (t : Fin cfg0.N) (h0 : t.val % 4 = 0) (q : Fin 4096) (x : EReal) :
    x ≤ (outsAt0 m c t.val t.isLt).2 (ix3 (0 : Fin 1) (0 : Fin 1) q) ↔ ∀ r : Fin 1024, x ≤ tileAt m c t r q := by
  have e : (outsAt0 m c t.val t.isLt).2
      = k0_pay1 (F := Ideal) (k0_pay5 (iblk m c 0 t) (iblk m c 1 t)) (k0_pay6 (k0_pay4 (F := Ideal))) := by
    rw [outsAt0_A m c t h0]
    dsimp only
    exact out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  rw [e]
  refine (iff_of_eq (congrArg (x ≤ ·) (colStep (iblk m c 0 t) (iblk m c 1 t) (k0_pay4 (F := Ideal)) q))).trans ?_
  rw [pay4_apply q, le_min_iff, le_iInf_iff]
  exact ⟨fun h => h.2, fun h => ⟨le_top, h⟩⟩

/-- At a later point of a batch it joins the new column minimum to what the point before left. -/
theorem snd_later (c : Dev nD) (t : Fin cfg0.N) (h0 : ¬t.val % 4 = 0) (q : Fin 4096) (x : EReal) :
    x ≤ (outsAt0 m c t.val t.isLt).2 (ix3 (0 : Fin 1) (0 : Fin 1) q)
      ↔ x ≤ (outsAt0 m c (t.val - 1) (Nat.lt_of_le_of_lt (Nat.sub_le _ _) t.isLt)).2 (ix3 (0 : Fin 1) (0 : Fin 1) q)
        ∧ ∀ r : Fin 1024, x ≤ tileAt m c t r q := by
  have e : (outsAt0 m c t.val t.isLt).2
      = k0_pay1 (F := Ideal) (k0_pay5 (iblk m c 0 t) (iblk m c 1 t))
          (k0_pay6 (outsAt0 m c (t.val - 1) (Nat.lt_of_le_of_lt (Nat.sub_le _ _) t.isLt)).2) := by
    rw [outsAt0_B m c t h0]
    dsimp only
    exact out_B_3 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2
  rw [e]
  refine (iff_of_eq (congrArg (x ≤ ·) (colStep (iblk m c 0 t) (iblk m c 1 t)
    (outsAt0 m c (t.val - 1) (Nat.lt_of_le_of_lt (Nat.sub_le _ _) t.isLt)).2 q))).trans ?_
  rw [le_min_iff, le_iInf_iff]
  exact Iff.rfl

/-- THE RUNNING MINIMUM. After point `n`, `x` is below entry `q` of the second output block exactly when it is below
    every entry of column `q` of the tile of every point from the first of `n`'s batch (`n - n % 4`) up to `n`. -/
theorem outs_snd_le (c : Dev nD) (q : Fin 4096) (x : EReal) : ∀ (n : ℕ) (hn : n < cfg0.N),
    (x ≤ (outsAt0 m c n hn).2 (ix3 (0 : Fin 1) (0 : Fin 1) q)
      ↔ ∀ t : Fin cfg0.N, n - n % 4 ≤ t.val → t.val ≤ n → ∀ r : Fin 1024, x ≤ tileAt m c t r q)
  | 0, hn => by
    refine (snd_first m c ⟨0, hn⟩ rfl q x).trans ⟨fun h t _ h2 r => ?_, fun h r => h ⟨0, hn⟩ (Nat.zero_le _) (Nat.le_refl _) r⟩
    obtain rfl : t = ⟨0, hn⟩ := Fin.ext (Nat.le_zero.mp h2)
    exact h r
  | n + 1, hn => by
    by_cases h0 : (n + 1) % 4 = 0
    · refine (snd_first m c ⟨n + 1, hn⟩ h0 q x).trans ⟨fun h t h1 h2 r => ?_, fun h r => h ⟨n + 1, hn⟩ (Nat.sub_le _ _) (Nat.le_refl _) r⟩
      obtain rfl : t = ⟨n + 1, hn⟩ := Fin.ext (by show t.val = n + 1; omega)
      exact h r
    · refine (snd_later m c ⟨n + 1, hn⟩ h0 q x).trans ?_
      have ih := outs_snd_le c q x n (Nat.lt_of_succ_lt hn)
      refine (and_congr_left' ih).trans ⟨fun h t h1 h2 r => ?_, fun h => ⟨fun t h1 h2 r => h t (by omega) (by omega) r, fun r => h ⟨n + 1, hn⟩ (Nat.sub_le _ _) (Nat.le_refl _) r⟩⟩
      by_cases ht : t.val = n + 1
      · obtain rfl : t = ⟨n + 1, hn⟩ := Fin.ext ht
        exact h.2 r
      · exact h.1 t (by omega) (by omega) r

end Cert.Chamfer.K

end
-- ==== Proof.Arrays.lean ====
/-
  The two arrays the kernel's region leaves, of shape [16, 1, 4096], as functions of the two argument arrays:
  entry (b, 0, n) of the first is the least squared distance from point `n` of the first argument's batch `b` to a
  point of the second's, entry (b, 0, q) of the second the least squared distance from point `q` of the second
  argument's batch `b` to a point of the first's — the distance written coordinate by coordinate.
-/
import proofs.«144510_j19705309954521_2_alg».proof.Proof.Spec

noncomputable section

namespace Cert.Chamfer

open Idealize.ShloMosaic

/-- The shape of both arrays. -/
abbrev O3 : Shape := ⟨3, ![16, 1, 4096]⟩

def rowArr (p t : A3.Idx → EReal) : O3.Idx → EReal := fun i => rowMin (distK p t) (i 0) (i 2)
def colArr (p t : A3.Idx → EReal) : O3.Idx → EReal := fun i => colMin (distK p t) (i 0) (i 2)

end Cert.Chamfer

end
-- ==== Proof.KFinal.lean ====
/-
  The two arrays the region leaves, whole.

  Grid point `t` (of 64) is batch `t / 4` and, within the batch, block `t % 4` of 1024 points of the first argument:
  its first input block is rows `1024·(t % 4) …` of batch `t / 4` of the first argument, its second input block the
  whole batch `t / 4` of the second argument transposed (coordinates on the middle axis) — the transposition is the
  one host operation before the region. So the point's tile is the squared distances between those 1024 points and
  the batch's 4096 points of the second argument (`tileAt_eq`).

    * First output. Every point writes its block back, block `t % 4` of row 0 of batch `t / 4`: the row minima of
      its tile are the least distances from its 1024 points, and the 64 blocks tile the array.
    * Second output. Only the last point of each batch writes back, the whole row 0 of the batch: the running
      minimum over the batch's four tiles, whose lower bounds are the common lower bounds of column `q` over all
      4096 = 4 · 1024 points of the first argument — row `n` is row `n % 1024` of the tile of the batch's point `n / 1024`.
-/
import proofs.«144510_j19705309954521_2_alg».proof.Proof.KAccum
import proofs.«144510_j19705309954521_2_alg».proof.Proof.Arrays
import Idealize.ShloMosaic.Lib.StableHlo.Run

noncomputable section

namespace Cert.Chamfer.K

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ)

/-- The printed index maps over the grid: batch `t / 4` on the first axis of every window, block `t % 4` on the row axis
    of the first input and on the last axis of the first output, zero elsewhere. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- The batch of a grid point, and the row of the first argument that row `r` of the point's block is. -/
def bt (t : Fin cfg0.N) : Fin 16 := ⟨t.val / 4, by have := t.isLt; have hN : cfg0.N = 64 := N_0; omega⟩
def rowOf (t : Fin cfg0.N) (r : Fin 1024) : Fin 4096 := ⟨1024 * (t.val % 4) + r.val, by have := r.isLt; omega⟩

/-! ## The input blocks -/

/-- The second window's array is the second argument with its last two axes exchanged. -/
theorem V_v0 (c : Dev nD) : (V m c main_v0 : S16x3x4096.Idx → EReal)
    = transpose S16x3x4096 [0, 2, 1] (m ((c : Thread nD τ).loc main_arg1)) transposes_S16x4096x3_S16x3x4096_0_2_1 := by
  show StableHlo.after hostOps0 (fun b => m (c, b)) (Proc.devRef .tc main_v0) = _
  after_results

theorem V_v0_apply (c : Dev nD) (b : Fin 16) (k : Fin 3) (q : Fin 4096) :
    (V m c main_v0 : S16x3x4096.Idx → EReal) (ix3 b k q) = (m ((c : Thread nD τ).loc main_arg1)) (ix3 b q k) := by
  rw [V_v0 m c]
  exact transpose_apply _ _ transposes_S16x4096x3_S16x3x4096_0_2_1 (ix3 b k q) (ix3 b q k) (fun a => by
    match a with
    | ⟨0, _⟩ => rfl
    | ⟨1, _⟩ => rfl
    | ⟨2, _⟩ => rfl)

/-- Row `r`, coordinate `k` of the first input block at point `t`. -/
theorem iblk0_apply (c : Dev nD) (t : Fin cfg0.N) (r : Fin 1024) (k : Fin 3) :
    iblk m c 0 t (ix3 (0 : Fin 1) r k) = (m ((c : Thread nD τ).loc main_arg0)) (ix3 (bt t) (rowOf t r) k) := by
  obtain ⟨e0, e1, e2, -⟩ := idx_facts t
  unfold iblk
  rw [View.read_apply]
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = t.val / 4; rw [e0]; omega
  | ⟨1, _⟩ => show win0_0.index t (1 : Fin 3) * 1024 + 1 * r.val = 1024 * (t.val % 4) + r.val; rw [e1]; omega
  | ⟨2, _⟩ => show win0_0.index t (2 : Fin 3) * 3 + 1 * k.val = k.val; rw [e2]; omega

/-- Coordinate `k`, point `q` of the second input block at point `t`. -/
theorem iblk1_apply (c : Dev nD) (t : Fin cfg0.N) (k : Fin 3) (q : Fin 4096) :
    iblk m c 1 t (ix3 (0 : Fin 1) k q) = (m ((c : Thread nD τ).loc main_arg1)) (ix3 (bt t) q k) := by
  obtain ⟨-, -, -, e0, e1, e2, -⟩ := idx_facts t
  unfold iblk
  rw [View.read_apply]
  show V m c main_v0 (((cfg0.win 1).blk t).view.emb (ix3 (0 : Fin 1) k q)) = _
  have hidx : ((cfg0.win 1).blk t).view.emb (ix3 (0 : Fin 1) k q) = ix3 (bt t) k q := funext fun a => Fin.ext (by
    match a with
    | ⟨0, _⟩ => show win0_1.index t (0 : Fin 3) * 1 + 1 * 0 = t.val / 4; rw [e0]; omega
    | ⟨1, _⟩ => show win0_1.index t (1 : Fin 3) * 3 + 1 * k.val = k.val; rw [e1]; omega
    | ⟨2, _⟩ => show win0_1.index t (2 : Fin 3) * 4096 + 1 * q.val = q.val; rw [e2]; omega)
  exact (congrArg (V m c main_v0) hidx).trans (V_v0_apply m c (bt t) k q)

/-- The tile of point `t`: squared distances between rows `1024·(t % 4) + r` of batch `t / 4` of the first argument and
    the points of the same batch of the second. -/
theorem tileAt_eq (c : Dev nD) (t : Fin cfg0.N) (r : Fin 1024) (q : Fin 4096) :
    tileAt m c t r q = distK (m ((c : Thread nD τ).loc main_arg0)) (m ((c : Thread nD τ).loc main_arg1)) (bt t) (rowOf t r) q := by
  unfold tileAt tile distK
  rw [iblk0_apply m c t r (0 : Fin 3), iblk0_apply m c t r (1 : Fin 3), iblk0_apply m c t r (2 : Fin 3),
    iblk1_apply m c t (0 : Fin 3) q, iblk1_apply m c t (1 : Fin 3) q, iblk1_apply m c t (2 : Fin 3) q]

/-! ## The first output -/

theorem fst_at (c : Dev nD) (t : Fin cfg0.N) (y : S1x1x1024.Idx) :
    (outsAt0 m c t.val t.isLt).1 y = ⨅ q : Fin 4096, tileAt m c t (y 2) q := by
  have hy : y = ix3 (0 : Fin 1) (0 : Fin 1) (y 2) := funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg (outsAt0 m c t.val t.isLt).1 hy).trans (outs_fst_apply m c t (y 2))

/-- What point `t` writes back to the first output is block `t` of the array of least distances. -/
theorem flushed2_eq (c : Dev nD) (t : Fin cfg0.N) :
    (dats m 0 c).flushed 2 t = ((cfg0.win 2).blk t).view.read (Elt Ideal) (rowArr (m ((c : Thread nD τ).loc main_arg0)) (m ((c : Thread nD τ).loc main_arg1))) := by
  obtain ⟨-, -, -, -, -, -, e0, e1, e2, -⟩ := idx_facts t
  show (cfg0.win 2).cut (grid0.coords t) ((dats m 0 c).after 2 t) = _
  rw [after0_2]
  funext y
  show (outsAt0 m c t.val t.isLt).1 y = rowArr (m ((c : Thread nD τ).loc main_arg0)) (m ((c : Thread nD τ).loc main_arg1)) (((cfg0.win 2).blk t).view.emb y)
  refine (fst_at m c t y).trans ?_
  unfold rowArr rowMin
  have hb : (((cfg0.win 2).blk t).view.emb y) 0 = bt t := Fin.ext (by
    have h : (y 0).val < 1 := (y 0).isLt
    show win0_2.index t (0 : Fin 3) * 1 + 1 * (y 0).val = t.val / 4
    rw [e0]; omega)
  have hn : (((cfg0.win 2).blk t).view.emb y) 2 = rowOf t (y 2) := Fin.ext (by
    show win0_2.index t (2 : Fin 3) * 1024 + 1 * (y 2).val = 1024 * (t.val % 4) + (y 2).val
    rw [e2]; omega)
  refine iInf_congr fun q => ?_
  exact (tileAt_eq m c t (y 2) q).trans (congrArg₂ (fun b n => distK (m ((c : Thread nD τ).loc main_arg0)) (m ((c : Thread nD τ).loc main_arg1)) b n q) hb.symm hn.symm)

theorem mem_blk2 (t : Fin cfg0.N) (i : S16x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v1_0).slice (win0_2.rect t)).set ↔ _
  rw [View.set_slice_whole, Rect.mem_set_unit]
  exact Iff.rfl

/-- Entry (b, 0, n) is in the block of point `4·b + n / 1024`. -/
theorem cover2 (i : S16x1x4096.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 4096 := (i 2).isLt
  have hN : cfg0.N = 64 := N_0
  obtain ⟨T, hT⟩ : ∃ T : Fin cfg0.N, T.val = 4 * (i 0).val + (i 2).val / 1024 := ⟨⟨_, by omega⟩, rfl⟩
  obtain ⟨-, -, -, -, -, -, e0, e1, e2, -⟩ := idx_facts T
  refine ⟨T, flush0_2 T, ?_⟩
  rw [mem_blk2]
  intro a
  match a with
  | ⟨0, _⟩ =>
    show win0_2.index T (0 : Fin 3) * 1 ≤ (i 0).val ∧ (i 0).val < win0_2.index T (0 : Fin 3) * 1 + 1
    rw [e0]; omega
  | ⟨1, _⟩ =>
    show win0_2.index T (1 : Fin 3) * 1 ≤ (i 1).val ∧ (i 1).val < win0_2.index T (1 : Fin 3) * 1 + 1
    rw [e1]; omega
  | ⟨2, _⟩ =>
    show win0_2.index T (2 : Fin 3) * 1024 ≤ (i 2).val ∧ (i 2).val < win0_2.index T (2 : Fin 3) * 1024 + 1024
    rw [e2]; omega

/-- THE FIRST ARRAY after the run. -/
theorem final2 (c : Dev nD) : (dats m 0 c).arrAt 2 cfg0.N = rowArr (m ((c : Thread nD τ).loc main_arg0)) (m ((c : Thread nD τ).loc main_arg1)) :=
  (dats m 0 c).arrAt_eq_of_cover 2 (rowArr (m ((c : Thread nD τ).loc main_arg0)) (m ((c : Thread nD τ).loc main_arg1))) (fun t _ => flushed2_eq m c t) cover2

/-! ## The second output -/

/-- After the last point of a batch, entry `q` of the second output block is the least squared distance from point `q` of
    the batch of the second argument to any of the 4096 points of the batch of the first. -/
theorem snd_at (c : Dev nD) (t : Fin cfg0.N) (h3 : t.val % 4 = 3) (y : S1x1x4096.Idx) :
    (outsAt0 m c t.val t.isLt).2 y = colMin (distK (m ((c : Thread nD τ).loc main_arg0)) (m ((c : Thread nD τ).loc main_arg1))) (bt t) (y 2) := by
  have hy : y = ix3 (0 : Fin 1) (0 : Fin 1) (y 2) := funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  refine (congrArg (outsAt0 m c t.val t.isLt).2 hy).trans ?_
  unfold colMin
  refine eq_iInf_of_le_iff _ _ fun x => ?_
  have hN : cfg0.N = 64 := N_0
  have ht := t.isLt
  refine (outs_snd_le m c (y 2) x t.val t.isLt).trans ⟨fun h n => ?_, fun h t' h1 h2 r => ?_⟩
  · have hn := n.isLt
    obtain ⟨T, hT⟩ : ∃ T : Fin cfg0.N, T.val = t.val - 3 + n.val / 1024 := ⟨⟨_, by omega⟩, rfl⟩
    obtain ⟨R, hR⟩ : ∃ R : Fin 1024, R.val = n.val % 1024 := ⟨⟨_, by omega⟩, rfl⟩
    have key := h T (by omega) (by omega) R
    rw [tileAt_eq m c T R (y 2)] at key
    have e1 : bt T = bt t := Fin.ext (by show T.val / 4 = t.val / 4; omega)
    have e2 : rowOf T R = n := Fin.ext (by show 1024 * (T.val % 4) + R.val = n.val; omega)
    rw [e1, e2] at key
    exact key
  · have key := h (rowOf t' r)
    have e1 : bt t' = bt t := Fin.ext (by show t'.val / 4 = t.val / 4; omega)
    rw [tileAt_eq m c t' r (y 2), e1]
    exact key

/-- What the last point of a batch writes back to the second output is its block of the array of least distances. -/
theorem flushed3_eq (c : Dev nD) (t : Fin cfg0.N) (hf : (cfg0.win 3).flush t = true) :
    (dats m 0 c).flushed 3 t = ((cfg0.win 3).blk t).view.read (Elt Ideal) (colArr (m ((c : Thread nD τ).loc main_arg0)) (m ((c : Thread nD τ).loc main_arg1))) := by
  have h3 : t.val % 4 = 3 := (flush0_3 t).mp hf
  obtain ⟨-, -, -, -, -, -, -, -, -, e0, e1, e2⟩ := idx_facts t
  show (cfg0.win 3).cut (grid0.coords t) ((dats m 0 c).after 3 t) = _
  rw [after0_3]
  funext y
  show (outsAt0 m c t.val t.isLt).2 y = colArr (m ((c : Thread nD τ).loc main_arg0)) (m ((c : Thread nD τ).loc main_arg1)) (((cfg0.win 3).blk t).view.emb y)
  refine (snd_at m c t h3 y).trans ?_
  unfold colArr
  have hb : (((cfg0.win 3).blk t).view.emb y) 0 = bt t := Fin.ext (by
    have h : (y 0).val < 1 := (y 0).isLt
    show win0_3.index t (0 : Fin 3) * 1 + 1 * (y 0).val = t.val / 4
    rw [e0]; omega)
  have hq : (((cfg0.win 3).blk t).view.emb y) 2 = y 2 := Fin.ext (by
    show win0_3.index t (2 : Fin 3) * 4096 + 1 * (y 2).val = (y 2).val
    rw [e2]; omega)
  exact congrArg₂ (fun b q => colMin (distK (m ((c : Thread nD τ).loc main_arg0)) (m ((c : Thread nD τ).loc main_arg1))) b q) hb.symm hq.symm

theorem mem_blk3 (t : Fin cfg0.N) (i : S16x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Entry (b, 0, q) is in the block the last point of batch `b`, `4·b + 3`, writes back. -/
theorem cover3 (i : S16x1x4096.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  have hN : cfg0.N = 64 := N_0
  obtain ⟨T, hT⟩ : ∃ T : Fin cfg0.N, T.val = 4 * (i 0).val + 3 := ⟨⟨_, by omega⟩, rfl⟩
  obtain ⟨-, -, -, -, -, -, -, -, -, e0, e1, e2⟩ := idx_facts T
  refine ⟨T, (flush0_3 T).mpr (by omega), ?_⟩
  rw [mem_blk3]
  intro a
  match a with
  | ⟨0, _⟩ =>
    show win0_3.index T (0 : Fin 3) * 1 ≤ (i 0).val ∧ (i 0).val < win0_3.index T (0 : Fin 3) * 1 + 1
    rw [e0]; omega
  | ⟨1, _⟩ =>
    show win0_3.index T (1 : Fin 3) * 1 ≤ (i 1).val ∧ (i 1).val < win0_3.index T (1 : Fin 3) * 1 + 1
    rw [e1]; omega
  | ⟨2, _⟩ =>
    show win0_3.index T (2 : Fin 3) * 4096 ≤ (i 2).val ∧ (i 2).val < win0_3.index T (2 : Fin 3) * 4096 + 4096
    rw [e2]; omega

/-- THE SECOND ARRAY after the run. -/
theorem final3 (c : Dev nD) : (dats m 0 c).arrAt 3 cfg0.N = colArr (m ((c : Thread nD τ).loc main_arg0)) (m ((c : Thread nD τ).loc main_arg1)) :=
  (dats m 0 c).arrAt_eq_of_cover 3 (colArr (m ((c : Thread nD τ).loc main_arg0)) (m ((c : Thread nD τ).loc main_arg1))) (fun t hf => flushed3_eq m c t hf) cover3

end Cert.Chamfer.K

end
-- ==== Proof.KRun.lean ====
/-
  What the idealized kernel's run ends with.

  The program is one host operation, the region, and seventeen host operations. The region leaves two arrays of
  shape [16, 1, 4096]. The operations after it first drop the unit middle axis of each — a reshape keeps the elements
  in row-major order, and entry (b, n) of a [16, 4096] array sits at the same row-major position, b · 4096 + n, as
  entry (b, 0, n) of a [16, 1, 4096] array — and are then, operation for operation and constant for constant, the
  shared tail: two row sums from zero, each divided by 4096, added, summed from zero over the batches, divided by 16.

  The generated run of the program says that, from a memory whose counters are all zero, every weakly fair execution
  terminates, and every final state has each array of the region at the contents the region's proof data gives it and
  every other buffer at what the operations after the region compute from those arrays. What the two output arrays
  end as is a hypothesis here: entry (b, 0, n) of the first is the least coordinate-by-coordinate squared distance
  from point n of the first argument to a point of the second, and entry (b, 0, q) of the second the least such
  distance from point q of the second argument to a point of the first.
  The result buffer then holds the shared tail of the two [16, 4096] arrays of these minima, and the two argument
  arrays end as they were launched, since no operation writes them.
-/
import proofs.«144510_j19705309954521_2_alg».proof.Proof.Gen.KernelIdeal.Frame
import proofs.«144510_j19705309954521_2_alg».proof.Proof.Tail
import proofs.«144510_j19705309954521_2_alg».proof.Proof.Arrays
import Idealize.ShloMosaic.Lib.Pipeline.Value
import Idealize.ShloMosaic.Lib.StableHlo.Run
import Idealize.ShloMosaic.Lib.ValueIdx
import Idealize.ShloMosaic.Lib.Tactic

noncomputable section

namespace Cert.Chamfer.K

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

/-! ## Dropping the unit axis

Entry (b, n) of the reshaped array is entry (b, 0, n) of the [16, 1, 4096] array: both sit at row-major position
(b · 1 + 0) · 4096 + n = b · 4096 + n. -/

/-- The first output array with its unit axis dropped: at (b, n), the least squared distance from point n of the
    first argument's batch b to a point of the second's. -/
theorem shapeCast_rowArr (p t : A3.Idx → EReal) (h : O3.ShapeCasts T2) :
    shapeCast T2 (rowArr p t) h = fun j => rowMin (distK p t) (j 0) (j 1) := by
  funext j
  unfold rowArr
  exact shapeCast_apply _ h j (ix3 (j 0) (0 : Fin 1) (j 1)) (by
    rw [Shape.rowMajor_val_three, Shape.rowMajor_val_two]
    show ((j 0).val * 1 + 0) * 4096 + (j 1).val = (j 0).val * 4096 + (j 1).val
    omega)

/-- The second output array with its unit axis dropped: at (b, q), the least squared distance from point q of the
    second argument's batch b to a point of the first's. -/
theorem shapeCast_colArr (p t : A3.Idx → EReal) (h : O3.ShapeCasts T2) :
    shapeCast T2 (colArr p t) h = fun j => colMin (distK p t) (j 0) (j 1) := by
  funext j
  unfold colArr
  exact shapeCast_apply _ h j (ix3 (j 0) (0 : Fin 1) (j 1)) (by
    rw [Shape.rowMajor_val_three, Shape.rowMajor_val_two]
    show ((j 0).val * 1 + 0) * 4096 + (j 1).val = (j 0).val * 4096 + (j 1).val
    omega)

/-! ## The operations after the region -/

/-- The result buffer after the seventeen operations that follow the region, computed from the arrays the region
    leaves: each operation's result is its function of its operands' contents, the two reshapes read the region's two
    output arrays (windows 2 and 3), which the hypotheses give, and what remains is the shared tail of the two arrays
    of minima, the same operations with the same constants. -/
theorem tail_eq (m : (ℓ : Loc nD τ sig) → Buf (Elt Ideal) ℓ) (c : Dev nD)
    (h2 : (dats m 0 c).arrAt 2 cfg0.N = rowArr (m ((c : Thread nD τ).loc main_arg0)) (m ((c : Thread nD τ).loc main_arg1)))
    (h3 : (dats m 0 c).arrAt 3 cfg0.N = colArr (m ((c : Thread nD τ).loc main_arg0)) (m ((c : Thread nD τ).loc main_arg1))) :
    Pipeline.afterTail₀ cfgs (dats m) 0 (V0 m) [hostOps1] c main_v12
      = tail reducesTo_S16x4096_S16_d1 reducesTo_S16_S_d0 bcast_S_S16 h_S_
          (fun j => rowMin (distK (m ((c : Thread nD τ).loc main_arg0)) (m ((c : Thread nD τ).loc main_arg1))) (j 0) (j 1))
          (fun j => colMin (distK (m ((c : Thread nD τ).loc main_arg0)) (m ((c : Thread nD τ).loc main_arg1))) (j 0) (j 1)) := by
  -- the buffer contents the region leaves, read at its two output arrays
  have e2 : Pipeline.withArrays (cfgs 0).spec c (V0 m c) (fun w => (dats m 0 c).arrAt w (cfgs 0).N) (Proc.devRef .tc main_v1_0)
      = rowArr (m ((c : Thread nD τ).loc main_arg0)) (m ((c : Thread nD τ).loc main_arg1)) :=
    (Pipeline.withArrays_arr spec0 launch0.win.arr_inj c _ _ 2).trans h2
  have e3 : Pipeline.withArrays (cfgs 0).spec c (V0 m c) (fun w => (dats m 0 c).arrAt w (cfgs 0).N) (Proc.devRef .tc main_v1_1)
      = colArr (m ((c : Thread nD τ).loc main_arg0)) (m ((c : Thread nD τ).loc main_arg1)) :=
    (Pipeline.withArrays_arr spec0 launch0.win.arr_inj c _ _ 3).trans h3
  unfold Pipeline.afterTail₀
  show StableHlo.after hostOps1 _ (Proc.devRef .tc main_v12) = _
  after_results
  rw [e2, e3]
  -- the operations that remain are the shared tail of the two reshaped arrays
  show tail reducesTo_S16x4096_S16_d1 reducesTo_S16_S_d0 bcast_S_S16 h_S_
      (shapeCast T2 (rowArr (m ((c : Thread nD τ).loc main_arg0)) (m ((c : Thread nD τ).loc main_arg1))) shapeCasts_S16x1x4096_S16x4096)
      (shapeCast T2 (colArr (m ((c : Thread nD τ).loc main_arg0)) (m ((c : Thread nD τ).loc main_arg1))) shapeCasts_S16x1x4096_S16x4096) = _
  rw [shapeCast_rowArr, shapeCast_colArr]

/-! ## The run -/

/-- From memory m with all counters zero, every weakly fair execution of the idealized kernel's program terminates,
    and every final state has, on every core, the result buffer at the shared tail of the two arrays of least
    coordinate-by-coordinate squared distances and both argument arrays as launched — given that the region's two
    output arrays end as those least distances laid out with a unit middle axis. The result buffer is no array of the
    region, so it ends as the operations after the region leave it; the first argument is an input array of the region,
    never written; the second is written by no operation. -/
theorem run (m : (ℓ : Loc nD τ sig) → Buf (Elt Ideal) ℓ) (ρ : Dev nD → PrngReg)
    (h2 : ∀ c : Dev nD, (dats m 0 c).arrAt 2 cfg0.N = rowArr (m ((c : Thread nD τ).loc main_arg0)) (m ((c : Thread nD τ).loc main_arg1)))
    (h3 : ∀ c : Dev nD, (dats m 0 c).arrAt 3 cfg0.N = colArr (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c.tc : Thread nD τ).loc main_v12)
          = tail reducesTo_S16x4096_S16_d1 reducesTo_S16_S_d0 bcast_S_S16 h_S_
              (fun j => rowMin (distK (m ((c : Thread nD τ).loc main_arg0)) (m ((c : Thread nD τ).loc main_arg1))) (j 0) (j 1))
              (fun j => colMin (distK (m ((c : Thread nD τ).loc main_arg0)) (m ((c : Thread nD τ).loc main_arg1))) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (tail_eq m c (h2 c) (h3 c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Chamfer.K

end
-- ==== Proof.lean ====
/-
  A Chamfer distance: for sixteen batches of two clouds of 4096 points in three coordinates, the mean over the
  batches of (the mean over the first cloud of the least squared distance to the second) + (the mean over the second
  cloud of the least squared distance to the first).

  The kernel's program forms each squared distance coordinate by coordinate, ((0 + (p₀-t₀)²) + (p₁-t₁)²) + (p₂-t₂)²,
  tile by tile (1024 points of the first cloud against all 4096 of the second), takes the row minima of a tile at
  once and the column minima as a running minimum over the four tiles of a batch, and averages on the host. The
  reference expands the square, (Σ p² - 2 Σ p·t) + Σ t², over whole arrays, takes the two minima, and averages the
  same way.

  On the extended reals the two agree when every entry is a real number: then both forms of the squared distance are
  the same real (three squares expanded), a minimum from +∞ over any grouping of a finite family is the family's
  infimum, and the averaging is literally one function of the two arrays of minima. The precondition says exactly
  that every entry is finite; it is used for the expansion and nowhere else.

  The three frames: the two kernels' are their generated frame runs; the reference's is its generated run with the
  result dropped. The idealization rewrote nothing, so its conjunct is trivial.
-/
import proofs.«144510_j19705309954521_2_alg».proof.Defs
import proofs.«144510_j19705309954521_2_alg».proof.Proof.Gen.Kernel
import proofs.«144510_j19705309954521_2_alg».proof.Proof.Gen.Kernel.Skeleton
import proofs.«144510_j19705309954521_2_alg».proof.Proof.Gen.Kernel.Launch
import proofs.«144510_j19705309954521_2_alg».proof.Proof.Gen.Kernel.Points
import proofs.«144510_j19705309954521_2_alg».proof.Proof.Gen.Kernel.Frame
import proofs.«144510_j19705309954521_2_alg».proof.Proof.Gen.KernelIdeal
import proofs.«144510_j19705309954521_2_alg».proof.Proof.Gen.KernelIdeal.Skeleton
import proofs.«144510_j19705309954521_2_alg».proof.Proof.Gen.KernelIdeal.Launch
import proofs.«144510_j19705309954521_2_alg».proof.Proof.Gen.KernelIdeal.Points
import proofs.«144510_j19705309954521_2_alg».proof.Proof.Gen.KernelIdeal.Frame
import proofs.«144510_j19705309954521_2_alg».proof.Proof.Gen.ReferenceIdeal
import proofs.«144510_j19705309954521_2_alg».proof.Proof.Gen.ReferenceIdeal.Run
import proofs.«144510_j19705309954521_2_alg».proof.Proof.Gen.ReferenceIdeal.Read
import proofs.«144510_j19705309954521_2_alg».proof.Proof.Gen.Pre_finite_inputs
import proofs.«144510_j19705309954521_2_alg».proof.Proof.Finite
import proofs.«144510_j19705309954521_2_alg».proof.Proof.RefSide
import proofs.«144510_j19705309954521_2_alg».proof.Proof.KFinal
import proofs.«144510_j19705309954521_2_alg».proof.Proof.KRun
import Idealize.ShloMosaic.Adequacy
import Idealize.ShloMosaic.Init

noncomputable section

namespace Cert.Proof

open Idealize.ShloMosaic Idealize.SL.Sem Cert.Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories that agree on the two clouds, with the shared averaging applied to the two
    arrays of least squared distances — the kernel's of the coordinate-by-coordinate form, the reference's of the
    expanded form; the clouds' entries being real, the two forms are one function. -/
theorem algebraic : Cert.algebraic_KernelIdeal_ReferenceIdeal := by
  intro m ρ m' ρ' hpre hagree
  refine ⟨fun c => tail Cert.KernelIdeal.Facts₀.reducesTo_S16x4096_S16_d1 Cert.KernelIdeal.Facts₀.reducesTo_S16_S_d0 Cert.KernelIdeal.Facts₀.bcast_S_S16 Cert.KernelIdeal.Facts₀.h_S_
      (fun j => rowMin (distK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (j 0) (j 1))
      (fun j => colMin (distK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (j 0) (j 1)),
    Cert.Chamfer.K.run m ρ (Cert.Chamfer.K.final2 m) (Cert.Chamfer.K.final3 m), ?_⟩
  refine (θ_run Cert.ReferenceIdeal.defs _ _).mono (fun _ h c => ⟨(h c).1.trans ?_, (h c).2⟩)
    (Cert.ReferenceIdeal.Value.run (F := Ideal) m' ρ')
  have hreal := Cert.Chamfer.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (hpre c)
  have hD : distR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = distK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    funext fun b => funext fun n => funext fun q => (distK_eq_distR _ _ hreal.1 hreal.2 b n q).symm
  rw [(hagree c).1, (hagree c).2, Cert.ReferenceIdeal.Read.val_main_v23_eq, Cert.Chamfer.Ref.result_eq, hD]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
